-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x64x32x32 : Shape := ⟨5, ![32, 16, 64, 32, 32]⟩
abbrev S32x32 : Shape := ⟨2, ![32, 32]⟩
abbrev S32 : Shape := ⟨1, ![32]⟩
abbrev S_ : Shape := ⟨0, ![]⟩

class Facts : Prop where
  bcast_S_S32x16x64x32x32 : S_.BroadcastsInDim S32x16x64x32x32 (![] : Fin 0 → Fin S32x16x64x32x32.rank)
  reducesTo_S32x16x64x32x32_S_d0_1_2_3_4 : S32x16x64x32x32.ReducesTo [0, 1, 2, 3, 4] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x16x64x32x32 .f32) (main_arg1 : FVec F S32x32 .f32) (main_arg2 : FVec F S32 .f32) : IVec S_ 1 :=
  let main_v0 : FVec F S32x16x64x32x32 .f32 := Host.absf main_arg0
  let main_cst : FVec F S_ .f32 := constant S_ .f32 0x7F800000#32
  let main_v1 : FVec F S32x16x64x32x32 .f32 := broadcastInDim S32x16x64x32x32 ![] bcast_S_S32x16x64x32x32 main_cst
  let main_v2 : IVec S32x16x64x32x32 1 := cmpf .olt main_v0 main_v1
  let main_c : IVec S_ 1 := constantI S_ 1 1#1
  let main_v3 : IVec S_ 1 := (fun x v => Host.reduce IntOp.andi x v reducesTo_S32x16x64x32x32_S_d0_1_2_3_4 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x16x64x32x32 : Shape := ⟨5, ![32, 16, 64, 32, 32]⟩
abbrev S32x32 : Shape := ⟨2, ![32, 32]⟩
abbrev S32 : Shape := ⟨1, ![32]⟩
abbrev S_ : Shape := ⟨0, ![]⟩
abbrev S32x1 : Shape := ⟨2, ![32, 1]⟩
abbrev S32x1048576 : Shape := ⟨2, ![32, 1048576]⟩
abbrev S32x32768 : Shape := ⟨2, ![32, 32768]⟩

abbrev nBuf : Space → Nat
  | .hbm => 25
  | .vmem => 6
  | .smem => 0
  | _ => 0

abbrev bufTy : (tb : Table) → Fin (tcTables nBuf tb) → BufTy
  | .hbm, ⟨0, _⟩ => ⟨S32x16x64x32x32, .f32⟩
  | .hbm, ⟨1, _⟩ => ⟨S32x32, .f32⟩
  | .hbm, ⟨2, _⟩ => ⟨S32, .f32⟩
  | .hbm, ⟨3, _⟩ => ⟨S_, .f32⟩
  | .hbm, ⟨4, _⟩ => ⟨S32x32, .f32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x1, .f32⟩
  | .hbm, ⟨22, _⟩ => ⟨S32x1048576, .f32⟩
  | .hbm, ⟨23, _⟩ => ⟨S32x1048576, .f32⟩
  | .hbm, ⟨24, _⟩ => ⟨S32x16x64x32x32, .f32⟩
  | .local _ .vmem, ⟨0, _⟩ => ⟨S32x32, .f32⟩
  | .local _ .vmem, ⟨1, _⟩ => ⟨S32x1, .f32⟩
  | .local _ .vmem, ⟨2, _⟩ => ⟨S32x32768, .f32⟩
  | .local _ .vmem, ⟨3, _⟩ => ⟨S32x32768, .f32⟩
  | .local _ .vmem, ⟨4, _⟩ => ⟨S32x32768, .f32⟩
  | .local _ .vmem, ⟨5, _⟩ => ⟨S32x32768, .f32⟩
  | _, _ => ⟨S32x16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32x32 : S_.BroadcastsInDim S32x32 (![] : Fin 0 → Fin S32x32.rank)
  shapeCasts_S32_S32x1 : S32.ShapeCasts S32x1
  shapeCasts_S32x16x64x32x32_S32x1048576 : S32x16x64x32x32.ShapeCasts S32x1048576
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32768 : S32x1.Broadcasts S32x32768
  natLt_1_32 : 1 < 32
  shapeCasts_S32x1048576_S32x16x64x32x32 : S32x1048576.ShapeCasts S32x16x64x32x32
  dot_S32x32_S32x32768_S32x32768_1_0_0_1_n_n_wf : DotDims.WF S32x32 S32x32768 S32x32768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32768.size a ≤ S32x1048576.size a
  hwx0_2 : ∀ i : grid0.Coords, EltTy.bits .f32 = 32 ∨ (Rect.block (s := S32x1048576) S32x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32768.size a ≤ S32x1048576.size a
  hwx0_3 : ∀ i : grid0.Coords, EltTy.bits .f32 = 32 ∨ (Rect.block (s := S32x1048576) S32x32768.size (cc0_transform_3 i) (hinb0_3 i)).WholeWords (EltTy.packing .f32)

variable [Facts₀]

def dot_S32x32_S32x32768_S32x32768_1_0_0_1_n_n : DotDims S32x32 S32x32768 S32x32768 where
  lhsContracting := [1]
  rhsContracting := [0]
  lhsNonContracting := [0]
  rhsNonContracting := [1]
  lhsBatch := []
  rhsBatch := []
  wf := dot_S32x32_S32x32768_S32x32768_1_0_0_1_n_n_wf

abbrev win0_0 : Pipeline.Window sig grid0 :=
  Pipeline.Window.ofSpec (Memref.whole main_v6) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S32x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x16x64x32x32 : Shape := ⟨5, ![32, 16, 64, 32, 32]⟩
abbrev S32x32 : Shape := ⟨2, ![32, 32]⟩
abbrev S32 : Shape := ⟨1, ![32]⟩
abbrev S_ : Shape := ⟨0, ![]⟩
abbrev S32x1048576 : Shape := ⟨2, ![32, 1048576]⟩
abbrev S32x1 : Shape := ⟨2, ![32, 1]⟩

abbrev nBuf : Space → Nat
  | .hbm => 31
  | .vmem => 0
  | .smem => 0
  | _ => 0

abbrev bufTy : (tb : Table) → Fin (tcTables nBuf tb) → BufTy
  | .hbm, ⟨0, _⟩ => ⟨S32x16x64x32x32, .f32⟩
  | .hbm, ⟨1, _⟩ => ⟨S32x32, .f32⟩
  | .hbm, ⟨2, _⟩ => ⟨S32, .f32⟩
  | .hbm, ⟨3, _⟩ => ⟨S_, .f32⟩
  | .hbm, ⟨4, _⟩ => ⟨S32x32, .f32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x1048576, .f32⟩
  | .hbm, ⟨22, _⟩ => ⟨S32x1048576, .f32⟩
  | .hbm, ⟨23, _⟩ => ⟨S32x1, .f32⟩
  | .hbm, ⟨24, _⟩ => ⟨S32x1048576, .f32⟩
  | .hbm, ⟨25, _⟩ => ⟨S32x1048576, .f32⟩
  | .hbm, ⟨26, _⟩ => ⟨S_, .f32⟩
  | .hbm, ⟨27, _⟩ => ⟨S32x1048576, .f32⟩
  | .hbm, ⟨28, _⟩ => ⟨S32x1048576, .i1⟩
  | .hbm, ⟨29, _⟩ => ⟨S32x1048576, .f32⟩
  | .hbm, ⟨30, _⟩ => ⟨S32x16x64x32x32, .f32⟩
  | _, _ => ⟨S32x16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  shapeCasts_S32x16x64x32x32_S32x1048576 : S32x16x64x32x32.ShapeCasts S32x1048576
  bcast_S32_S32x1_0 : S32.BroadcastsInDim S32x1 (![0] : Fin 1 → Fin S32x1.rank)
  bcast_S32x1_S32x1048576_0_1 : S32x1.BroadcastsInDim S32x1048576 (![0, 1] : Fin 2 → Fin S32x1048576.rank)
  bcast_S_S32x1048576 : S_.BroadcastsInDim S32x1048576 (![] : Fin 0 → Fin S32x1048576.rank)
  shapeCasts_S32x1048576_S32x16x64x32x32 : S32x1048576.ShapeCasts S32x16x64x32x32
  dot_S32x32_S32x1048576_S32x1048576_1_0_0_1_n_n_wf : DotDims.WF S32x32 S32x1048576 S32x1048576 [1] [0] [0] [1] [] []

variable [Facts₀]

def dot_S32x32_S32x1048576_S32x1048576_1_0_0_1_n_n : DotDims S32x32 S32x1048576 S32x1048576 where
  lhsContracting := [1]
  rhsContracting := [0]
  lhsNonContracting := [0]
  rhsNonContracting := [1]
  lhsBatch := []
  rhsBatch := []
  wf := dot_S32x32_S32x1048576_S32x1048576_1_0_0_1_n_n_wf

class Facts : Prop extends Facts₀ where

variable [Facts]
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.Spike.lean ====
/-
  The layer this certificate is about, entry by entry, on the extended reals.

  For a 32 × 32 weight matrix w, an input x of 32 rows and 1048576 columns, and a bias b of 32 entries, the
  pre-activation at row p and column n is

      h(p, n) = Σ_k w(p, k) · x(k, n) + b(p),

  a sum of 32 products plus the row's bias, and the layer's output there is the spike 1[h(p, n) ≥ 0]: the bit
  of the comparison with zero, read as the number 0 or 1.
-/
import Idealize.ShloMosaic.PureOps.Ideal.Laws
import Idealize.ShloMosaic.Lib.ValueIdx

noncomputable section

open scoped BigOperators

namespace Cert.Spike

open Idealize.ShloMosaic Idealize.ShloMosaic.ValueIdx

/-- The spike of a pre-activation: the bit of `h ≥ 0`, read as the number 0 or 1. -/
def fire (h : Ideal .f32) : Ideal .f32 :=
  FloatOps.uitofp .f32 (FloatOps.cmpf .oge h (FloatOps.ofBits (F := Ideal) .f32 0x00000000#32))

/-- The spike at row `p` and column `n`: of the row of `w` against the column of `x`, plus the row's bias. -/
def spikeAt (w : FVec Ideal ⟨2, ![32, 32]⟩ .f32) (x : FVec Ideal ⟨2, ![32, 1048576]⟩ .f32)
    (b : FVec Ideal ⟨1, ![32]⟩ .f32) (p : Fin 32) (n : Fin 1048576) : Ideal .f32 :=
  fire ((∑ k : Fin 32, w (ix2 p k) * x (ix2 k n)) + b (ix1 p))

/-- Every spike, as one 32 × 1048576 array. -/
def spikes (w : FVec Ideal ⟨2, ![32, 32]⟩ .f32) (x : FVec Ideal ⟨2, ![32, 1048576]⟩ .f32)
    (b : FVec Ideal ⟨1, ![32]⟩ .f32) : FVec Ideal ⟨2, ![32, 1048576]⟩ .f32 :=
  fun j => spikeAt w x b (j 0) (j 1)

/-- The array read at an index whose coordinates are known as numbers. -/
theorem spikes_apply (w : FVec Ideal ⟨2, ![32, 32]⟩ .f32) (x : FVec Ideal ⟨2, ![32, 1048576]⟩ .f32)
    (b : FVec Ideal ⟨1, ![32]⟩ .f32) (j : (⟨2, ![32, 1048576]⟩ : Shape).Idx) (p : Fin 32) (n : Fin 1048576)
    (h0 : (j 0).val = p.val) (h1 : (j 1).val = n.val) : spikes w x b j = spikeAt w x b p n := by
  obtain rfl : j 0 = p := Fin.ext h0
  obtain rfl : j 1 = n := Fin.ext h1
  rfl

end Cert.Spike

end
-- ==== Proof.BodySpike.lean ====
/-
  What the kernel's body stores, read at one entry of its block.

  At a grid point the body holds the whole masked weight W (32 × 32), the bias as a column B (32 × 1) and a block X of
  32768 columns of the input (32 × 32768). It multiplies W by X into a zero accumulator, adds the bias column broadcast
  along the columns, compares with zero and converts the bit to a number. So at row p and column q of the block it
  stores the spike of Σ_k W(p, k) · X(k, q) + B(p, 0).
-/
import proofs.«131401_j49134425866322_2_alg».proof.Proof.Gen.KernelIdeal.Skeleton
import proofs.«131401_j49134425866322_2_alg».proof.Proof.LibMatmulPlain
import proofs.«131401_j49134425866322_2_alg».proof.Proof.LibKeepdims
import proofs.«131401_j49134425866322_2_alg».proof.Proof.Spike
import Idealize.ShloMosaic.Lib.KernelVsHost
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The body's stored value at row `p`, column `q` of the block: the spike of the row of `W` against the column of
    `X`, plus the row's bias. The bit widened to a word and converted signed is the bit converted unsigned; the product
    into a zero accumulator is the plain sum of 32 products. -/
theorem pay_apply (W : Vec Ideal S32x32 .f32) (X : Vec Ideal S32x32768 .f32) (B : Vec Ideal S32x1 .f32)
    (p : Fin 32) (q : Fin 32768) :
    k0_pay1 (F := Ideal) W X B (ix2 p q)
      = Cert.Spike.fire ((∑ k : Fin 32, W (ix2 p k) * X (ix2 k q)) + B (ix2 p (0 : Fin 1))) := by
  unfold k0_pay1
  simp only [shapeCast_self]
  rw [sitofp_extui_eq_uitofp]
  refine congrArg Cert.Spike.fire ?_
  refine congrArg₂ (· + ·) ?_ ?_
  · exact Cert.LibMatmulPlain.matmul_zero_apply dot_S32x32_S32x32768_S32x32768_1_0_0_1_n_n_wf (some .fp32) W X p q
  · exact Cert.Lib.Keepdims.bcastCol_apply B broadcasts_S32x1_S32x32768 p q

end Cert.KernelIdeal.Body

end
-- ==== Proof.KernelValue.lean ====
/-
  The kernel's result array, as one function of its arguments.

  Before the region the host builds the masked weight (the weight times its decay mask), turns the bias into a
  32 × 1 column, and flattens the input to 32 rows of 1048576 columns. The region's grid has 32 points; point t holds
  the whole masked weight, the whole bias column, and columns 32768·t … 32768·t + 32767 of the flattened input, and
  writes the same columns of the output. Entry (p, q) of what point t writes is the spike of
  Σ_k w(p, k) · x(k, 32768·t + q) + b(p): entry (p, 32768·t + q) of the array of all spikes. Every column n lies in the
  block of point n / 32768, so the blocks tile the output and it ends as the array of all spikes; the host's last
  line reshapes it to the input's five axes.
-/
import proofs.«131401_j49134425866322_2_alg».proof.Proof.Gen.KernelIdeal.Frame
import proofs.«131401_j49134425866322_2_alg».proof.Proof.BodySpike
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds -/

/-- The weight times its decay mask, as the host's lines build it: the mask is one half of the lower triangle's
    indicator plus one half. -/
def maskedWeight (x1 : FVec Ideal S32x32 .f32) : FVec Ideal S32x32 .f32 :=
  mulf x1 (addf (mulf (broadcastInDim S32x32 ![] bcast_S_S32x32 (constant (F := Ideal) S_ .f32 0x3F000000#32)) (select (cmpi .sge (addi (iotaInDim S32x32 32 0) (broadcastInDim S32x32 ![] bcast_S_S32x32 (constantI S_ 32 0#32))) (iotaInDim S32x32 32 1)) (broadcastInDim S32x32 ![] bcast_S_S32x32 (constant (F := Ideal) S_ .f32 0x3F800000#32)) (broadcastInDim S32x32 ![] bcast_S_S32x32 (constant (F := Ideal) S_ .f32 0x00000000#32)))) (broadcastInDim S32x32 ![] bcast_S_S32x32 (constant (F := Ideal) S_ .f32 0x3F000000#32)))

/-- The region's first operand is the masked weight. -/
theorem found_weight (c : Dev nD) :
    (V m c main_v6 : S32x32.Idx → EReal) = maskedWeight (m ((c : Thread nD τ).loc main_arg1)) := by
  dsimp only [V, V0]
  simp only [hostOps0, hostOps0_1, hostOps0_2, List.flatten_cons, List.flatten_nil, List.append_nil, List.cons_append,
    List.nil_append]
  after_results
  rfl

/-- Its second operand is the bias as a column. -/
theorem found_bias (c : Dev nD) :
    (V m c main_v7 : S32x1.Idx → EReal) = shapeCast S32x1 (m ((c : Thread nD τ).loc main_arg2)) shapeCasts_S32_S32x1 := by
  dsimp only [V, V0]
  simp only [hostOps0, hostOps0_1, hostOps0_2, List.flatten_cons, List.flatten_nil, List.append_nil, List.cons_append,
    List.nil_append]
  after_results
  rfl

/-- Its third operand is the input flattened to 32 rows. -/
theorem found_input (c : Dev nD) :
    (V m c main_v8 : S32x1048576.Idx → EReal)
      = shapeCast S32x1048576 (m ((c : Thread nD τ).loc main_arg0)) shapeCasts_S32x16x64x32x32_S32x1048576 := by
  dsimp only [V, V0]
  simp only [hostOps0, hostOps0_1, hostOps0_2, List.flatten_cons, List.flatten_nil, List.append_nil, List.cons_append,
    List.nil_append]
  after_results
  rfl

/-! ## The blocks -/

/-- Where each window's block sits at point `t`: the weight's and the bias's at the origin, the input's and the
    output's at block column `t`. Decided over the 32 points. -/
theorem block_origin : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The weight's block at any point is the whole masked weight. -/
theorem weight_block (c : Dev nD) (t : Fin cfg0.N) (p k : Fin 32) :
    (iblk m c 0 t : Vec Ideal S32x32 .f32) (ix2 p k) = maskedWeight (m ((c : Thread nD τ).loc main_arg1)) (ix2 p k) := by
  obtain ⟨e0, e1, -⟩ := block_origin t
  rw [← found_weight m c]
  unfold iblk
  rw [View.read_apply]
  show V m c main_v6 _ = V m c main_v6 _
  congr 1
  funext a
  apply Fin.ext
  match a with
  | ⟨0, _⟩ => show win0_0.index t 0 * 32 + 1 * p.val = p.val; rw [e0]; omega
  | ⟨1, _⟩ => show win0_0.index t 1 * 32 + 1 * k.val = k.val; rw [e1]; omega

/-- The bias's block at any point is the whole column: its row `p` is the bias's entry `p`. -/
theorem bias_block (c : Dev nD) (t : Fin cfg0.N) (p : Fin 32) :
    (iblk m c 1 t : Vec Ideal S32x1 .f32) (ix2 p (0 : Fin 1)) = (m ((c : Thread nD τ).loc main_arg2) : S32.Idx → EReal) (ix1 p) := by
  obtain ⟨-, -, e0, e1, -⟩ := block_origin t
  rw [← Cert.Lib.Keepdims.castCol_apply (m ((c : Thread nD τ).loc main_arg2) : S32.Idx → EReal) shapeCasts_S32_S32x1 p,
    ← found_bias m c]
  unfold iblk
  rw [View.read_apply]
  show V m c main_v7 _ = V m c main_v7 _
  congr 1
  funext a
  apply Fin.ext
  match a with
  | ⟨0, _⟩ => show win0_1.index t 0 * 32 + 1 * p.val = p.val; rw [e0]; omega
  | ⟨1, _⟩ => show win0_1.index t 1 * 1 + 1 * 0 = 0; rw [e1]

/-- The input's block at point `t` is columns `32768·t …` of the flattened input. -/
theorem input_block (c : Dev nD) (t : Fin cfg0.N) (k : Fin 32) (q : Fin 32768) (n : Fin 1048576)
    (hn : n.val = t.val * 32768 + q.val) :
    (iblk m c 2 t : Vec Ideal S32x32768 .f32) (ix2 k q)
      = shapeCast S32x1048576 (m ((c : Thread nD τ).loc main_arg0)) shapeCasts_S32x16x64x32x32_S32x1048576 (ix2 k n) := by
  obtain ⟨-, -, -, -, e0, e1, -⟩ := block_origin t
  rw [← found_input m c]
  unfold iblk
  rw [View.read_apply]
  show V m c main_v8 _ = V m c main_v8 _
  congr 1
  funext a
  apply Fin.ext
  match a with
  | ⟨0, _⟩ => show win0_2.index t 0 * 32 + 1 * k.val = k.val; rw [e0]; omega
  | ⟨1, _⟩ => show win0_2.index t 1 * 32768 + 1 * q.val = n.val; rw [e1, hn]; omega

/-! ## What a point writes -/

theorem origin_zero : (![0, 0] : Fin 2 → Nat) = fun _ => 0 := funext fun a => by fin_cases a <;> rfl

/-- The output's staging buffer after the body is the body's one stored value, of the three whole input blocks. -/
theorem out_eq (x0 : Vec Ideal S32x32 .f32) (x1 : Vec Ideal S32x1 .f32) (x2 : Vec Ideal S32x32768 .f32) :
    out0_3 x0 x1 x2 = k0_pay1 x0 x2 x1 := by
  unfold out0_3
  rw [View.canon_unit_zero origin_zero]
  simp only [View.ld_unit_zero (S := S32x32) origin_zero, View.ld_unit_zero (S := S32x32768) origin_zero,
    View.ld_unit_zero (S := S32x1) origin_zero]

/-- One entry of what a point writes is one entry of the array of all spikes: for blocks `W`, `B`, `X` that are the
    whole weight `w`, the bias `b` as a column, and columns `32768·t …` of `x`, entry `j` of the output block is entry
    (row of `j`, `32768·t` + column of `j`) of the spikes of `w`, `x`, `b`. -/
theorem point_apply (W : Vec Ideal S32x32 .f32) (B : Vec Ideal S32x1 .f32) (X : Vec Ideal S32x32768 .f32)
    (w : Vec Ideal S32x32 .f32) (x : Vec Ideal S32x1048576 .f32) (b : Vec Ideal S32 .f32) (t : Nat)
    (hW : ∀ p k : Fin 32, W (ix2 p k) = w (ix2 p k))
    (hB : ∀ p : Fin 32, B (ix2 p (0 : Fin 1)) = b (ix1 p))
    (hX : ∀ (k : Fin 32) (q : Fin 32768) (n : Fin 1048576), n.val = t * 32768 + q.val → X (ix2 k q) = x (ix2 k n))
    (j : S32x32768.Idx) (i : S32x1048576.Idx) (h0 : (i 0).val = (j 0).val) (h1 : (i 1).val = t * 32768 + (j 1).val) :
    out0_3 W B X j = Cert.Spike.spikes w x b i := by
  obtain ⟨p, q, rfl⟩ : ∃ (p : Fin 32) (q : Fin 32768), j = ix2 p q := ⟨j 0, j 1, eq_ix2 j⟩
  rw [out_eq, Body.pay_apply, Cert.Spike.spikes_apply w x b i p (i 1) h0 rfl]
  unfold Cert.Spike.spikeAt
  refine congrArg Cert.Spike.fire (congrArg₂ (· + ·) (Finset.sum_congr rfl fun k _ => ?_) (hB p))
  rw [hW p k, hX k q (i 1) h1]

/-- The array of all spikes of the masked weight, the flattened input and the bias. -/
abbrev flat (c : Dev nD) : S32x1048576.Idx → EReal :=
  Cert.Spike.spikes (maskedWeight (m ((c : Thread nD τ).loc main_arg1)))
    (shapeCast S32x1048576 (m ((c : Thread nD τ).loc main_arg0)) shapeCasts_S32x16x64x32x32_S32x1048576)
    (m ((c : Thread nD τ).loc main_arg2))

/-- What point `t` writes back is block `t` of the array of all spikes. -/
theorem flushed_eq (c : Dev nD) (t : Fin cfg0.N) :
    (dats m 0 c).flushed 3 t = ((cfg0.win 3).blk t).view.read (Elt Ideal) (flat m c) := by
  obtain ⟨-, -, -, -, -, -, e0, e1⟩ := block_origin t
  show (cfg0.win 3).cut (grid0.coords t) ((dats m 0 c).after 3 t) = _
  rw [after0_3]
  funext j
  show out0_3 (iblk m c 0 t) (iblk m c 1 t) (iblk m c 2 t) j = flat m c (((cfg0.win 3).blk t).view.emb j)
  refine point_apply (iblk m c 0 t) (iblk m c 1 t) (iblk m c 2 t) _ _ _ t.val
    (weight_block m c t) (bias_block m c t) (input_block m c t) j _ ?_ ?_
  · show win0_3.index t 0 * 32 + 1 * (j 0).val = (j 0).val
    rw [e0]; omega
  · show win0_3.index t 1 * 32768 + 1 * (j 1).val = t.val * 32768 + (j 1).val
    rw [e1]; omega

/-! ## The blocks tile the output -/

/-- An index of the output is in point `t`'s block iff each coordinate is in the block's range on its axis. -/
theorem mem_block (t : Fin cfg0.N) (i : S32x1048576.Idx) :
    i ∈ ((cfg0.win 3).blk t).view.set ↔ ∀ a : Fin 2, win0_3.index t a * S32x32768.size a ≤ (i a).val
      ∧ (i a).val < win0_3.index t a * S32x32768.size a + S32x32768.size a := by
  show i ∈ ((View.whole main_v9).slice (win0_3.rect t)).set ↔ _
  rw [View.set_slice_whole, Rect.mem_set_unit]
  exact Iff.rfl

/-- Column `n` of the output lies in the block of point `n / 32768`, which writes back. -/
theorem tiled (i : S32x1048576.Idx) :
    ∃ t : Fin cfg0.N, (cfg0.win 3).flush t = true ∧ i ∈ ((cfg0.win 3).blk t).view.set := by
  have h0 : (i 0).val < 32 := (i 0).isLt
  have h1 : (i 1).val < 1048576 := (i 1).isLt
  have hN : cfg0.N = 32 := N_0
  obtain ⟨t, ht⟩ : ∃ t : Fin cfg0.N, t.val = (i 1).val / 32768 := ⟨⟨(i 1).val / 32768, by rw [hN]; omega⟩, rfl⟩
  obtain ⟨-, -, -, -, -, -, e0, e1⟩ := block_origin t
  refine ⟨t, flush0_3 t, ?_⟩
  rw [mem_block]
  intro a
  match a with
  | ⟨0, _⟩ =>
    show win0_3.index t 0 * 32 ≤ (i 0).val ∧ (i 0).val < win0_3.index t 0 * 32 + 32
    rw [e0]; omega
  | ⟨1, _⟩ =>
    show win0_3.index t 1 * 32768 ≤ (i 1).val ∧ (i 1).val < win0_3.index t 1 * 32768 + 32768
    rw [e1, ht]; omega

/-- So the output array ends as the array of all spikes. -/
theorem final_flat (c : Dev nD) : (dats m 0 c).arrAt 3 cfg0.N = flat m c :=
  (dats m 0 c).arrAt_eq_of_cover 3 (flat m c) (fun t _ => flushed_eq m c t) tiled

/-! ## The host's last line, and the run -/

/-- The kernel's result: the array of all spikes, reshaped to the input's five axes. -/
abbrev result (c : Dev nD) : S32x16x64x32x32.Idx → EReal :=
  shapeCast S32x16x64x32x32 (flat m c) shapeCasts_S32x1048576_S32x16x64x32x32

/-- After the host's last line the result buffer holds the reshaped spikes. -/
theorem tail_eq (c : Dev nD) :
    (Pipeline.afterTail₀ cfgs (dats m) 0 (V0 m) [hostOps1] c main_v10 : S32x16x64x32x32.Idx → EReal) = result m c := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.tc.devRef main_v9)
      = flat m c from (Pipeline.withArrays_arr spec0 launch0.win.arr_inj c _ _ 3).trans (final_flat m c)]
  rfl

/-- Every weakly fair execution of the kernel's program terminates with the result buffer at the reshaped spikes and
    the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Layer

end
-- ==== Proof.RefSpike.lean ====
/-
  The reference, read entry by entry.

  The reference flattens the input to 32 rows of 1048576 columns, multiplies the masked weight by it, adds the bias
  broadcast along the columns, compares with zero, converts the bit to a number, and reshapes back. Read at row p and
  column n, the array before that last reshape is the spike of Σ_k w(p, k) · x(k, n) + b(p), with w the masked weight
  and x the flattened input: the array of all spikes.
-/
import proofs.«131401_j49134425866322_2_alg».proof.Proof.Gen.ReferenceIdeal.Read
import proofs.«131401_j49134425866322_2_alg».proof.Proof.Spike

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's array before its last reshape is the array of all spikes, of the masked weight, the flattened
    input and the bias: the product's entry is the sum of 32 products, and the bias is read at the entry's row through its
    two broadcasts. -/
theorem flat_eq (x0 : (⟨S32x16x64x32x32, .f32⟩ : BufTy).Contents (Elt Ideal)) (x1 : (⟨S32x32, .f32⟩ : BufTy).Contents (Elt Ideal))
    (x2 : (⟨S32, .f32⟩ : BufTy).Contents (Elt Ideal)) :
    val_main_v14 (F := Ideal) x0 x1 x2
      = Cert.Spike.spikes (val_main_v6 (F := Ideal) x1) (val_main_v7 (F := Ideal) x0) x2 := by
  funext i
  obtain ⟨p, n, rfl⟩ : ∃ (p : Fin 32) (n : Fin 1048576), i = ix2 p n := ⟨i 0, i 1, eq_ix2 i⟩
  have el : ∀ k : Fin 32, lidx_main_v8 (ix2 p n) k = ix2 p k := fun k =>
    funext fun a => Fin.ext (by match a with | ⟨0, _⟩ => rfl | ⟨1, _⟩ => rfl)
  have er : ∀ k : Fin 32, ridx_main_v8 (ix2 p n) k = ix2 k n := fun k =>
    funext fun a => Fin.ext (by match a with | ⟨0, _⟩ => rfl | ⟨1, _⟩ => rfl)
  have eb : idx_main_v9 (idx_main_v10 (ix2 p n)) = ix1 p :=
    funext fun a => Fin.ext (by match a with | ⟨0, _⟩ => rfl)
  rw [val_main_v14_apply, val_main_v13_apply, val_main_v11_apply, val_main_v8_apply, val_main_v10_apply,
    val_main_v9_apply, val_main_v12_apply, val_main_cst_2_apply]
  simp only [el, er, eb]
  rfl

/-- The reference's result is the array of all spikes, reshaped to the input's five axes. -/
theorem result_eq (x0 : (⟨S32x16x64x32x32, .f32⟩ : BufTy).Contents (Elt Ideal)) (x1 : (⟨S32x32, .f32⟩ : BufTy).Contents (Elt Ideal))
    (x2 : (⟨S32, .f32⟩ : BufTy).Contents (Elt Ideal)) :
    val_main_v15 (F := Ideal) x0 x1 x2
      = shapeCast _ (Cert.Spike.spikes (val_main_v6 (F := Ideal) x1) (val_main_v7 (F := Ideal) x0) x2)
          shapeCasts_S32x1048576_S32x16x64x32x32 := by
  unfold val_main_v15
  rw [flat_eq]

end Cert.ReferenceIdeal.RefValue

end
-- ==== Proof.Claims.lean ====
/-
  The five claims.

  The three frames are the generated ones (the reference's is its run with the result dropped); the idealization
  rewrote nothing, so there is nothing to preserve. For the value claim both programs end with the array of all
  spikes — of the masked weight, the flattened input and the bias — reshaped to the input's five axes: the kernel by
  tiling the columns over its grid, the reference in one product. The masked weight and the flattened input are built
  by the same host lines in both programs, so once the arguments agree the two results are one term. No law that
  needs finite entries is used: each side computes the same sum of products plus the bias, in the same order.
-/
import proofs.«131401_j49134425866322_2_alg».proof.Defs
import proofs.«131401_j49134425866322_2_alg».proof.Proof.Gen.Kernel.Frame
import proofs.«131401_j49134425866322_2_alg».proof.Proof.Gen.KernelIdeal.Frame
import proofs.«131401_j49134425866322_2_alg».proof.Proof.Gen.ReferenceIdeal.Run
import proofs.«131401_j49134425866322_2_alg».proof.Proof.Gen.ReferenceIdeal.Read
import proofs.«131401_j49134425866322_2_alg».proof.Proof.Gen.Pre_finite_inputs
import proofs.«131401_j49134425866322_2_alg».proof.Proof.KernelValue
import proofs.«131401_j49134425866322_2_alg».proof.Proof.RefSpike

noncomputable section

namespace Cert.Proof.LayerClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reshaped array of all spikes of arguments that agree. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]
  rfl

end Cert.Proof.LayerClaims

end
-- ==== Proof.lean ====
/-
  A spiking linear layer over time steps: for a 32 × 32 weight, an input of 32 time steps by 16 × 64 × 32 × 32
  positions, and a bias of 32 entries, the output at time step p and position n is the spike
  1[Σ_k w(p, k) · x(k, n) + b(p) ≥ 0], where w is the weight times its decay mask (one half of the lower triangle's
  indicator plus one half) and the positions are counted flat, 1048576 of them.

  The kernel builds the masked weight, the bias column and the flattened input on the host, then runs a grid of 32
  points, each computing the spikes of 32768 consecutive positions from one 32 × 32 by 32 × 32768 product, and reshapes
  the result back. The reference computes the same spikes from one 32 × 32 by 32 × 1048576 product. On the extended
  reals the two results are equal entry by entry (Proof/Claims.lean): entry (p, q) of point t's block is entry
  (p, 32768·t + q) of the array of all spikes (Proof/KernelValue.lean, over Proof/BodySpike.lean), the blocks tile the
  array, and the reference's array read at (p, n) is the same spike (Proof/RefSpike.lean); Proof/Spike.lean states it.
-/
import proofs.«131401_j49134425866322_2_alg».proof.Defs
import proofs.«131401_j49134425866322_2_alg».proof.Proof.Gen.Kernel
import proofs.«131401_j49134425866322_2_alg».proof.Proof.Gen.Kernel.Skeleton
import proofs.«131401_j49134425866322_2_alg».proof.Proof.Gen.Kernel.Launch
import proofs.«131401_j49134425866322_2_alg».proof.Proof.Gen.Kernel.Points
import proofs.«131401_j49134425866322_2_alg».proof.Proof.Gen.Kernel.Frame
import proofs.«131401_j49134425866322_2_alg».proof.Proof.Gen.KernelIdeal
import proofs.«131401_j49134425866322_2_alg».proof.Proof.Gen.KernelIdeal.Skeleton
import proofs.«131401_j49134425866322_2_alg».proof.Proof.Gen.KernelIdeal.Launch
import proofs.«131401_j49134425866322_2_alg».proof.Proof.Gen.KernelIdeal.Points
import proofs.«131401_j49134425866322_2_alg».proof.Proof.Gen.KernelIdeal.Frame
import proofs.«131401_j49134425866322_2_alg».proof.Proof.Gen.ReferenceIdeal
import proofs.«131401_j49134425866322_2_alg».proof.Proof.Gen.ReferenceIdeal.Run
import proofs.«131401_j49134425866322_2_alg».proof.Proof.Gen.ReferenceIdeal.Read
import proofs.«131401_j49134425866322_2_alg».proof.Proof.Gen.Pre_finite_inputs
import proofs.«131401_j49134425866322_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
